-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S768x12 : Shape := ⟨2, ![768, 12]⟩
abbrev S768x768 : Shape := ⟨2, ![768, 768]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S768x12 : S_.BroadcastsInDim S768x12 (![] : Fin 0 → Fin S768x12.rank)
  reducesTo_S768x12_S_d0_1 : S768x12.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x2048x768 .f32) (main_arg1 : FVec F S768x12 .f32) (main_arg2 : FVec F S768x768 .f32) (main_arg3 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S768x12 .f32 := Host.absf main_arg1
  let main_cst_0 : FVec F S_ .f32 := constant S_ .f32 0x7F800000#32
  let main_v5 : FVec F S768x12 .f32 := broadcastInDim S768x12 ![] bcast_S_S768x12 main_cst_0
  let main_v6 : IVec S768x12 1 := cmpf .olt main_v4 main_v5
  let main_c_1 : IVec S_ 1 := constantI S_ 1 1#1
  let main_v7 : IVec S_ 1 := (fun x v => Host.reduce IntOp.andi x v reducesTo_S768x12_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x2048x768 : Shape := ⟨3, ![4, 2048, 768]⟩
abbrev S768x12 : Shape := ⟨2, ![768, 12]⟩
abbrev S768x768 : Shape := ⟨2, ![768, 768]⟩
abbrev S768 : Shape := ⟨1, ![768]⟩
abbrev S8192x768 : Shape := ⟨2, ![8192, 768]⟩
abbrev S768x12x1 : Shape := ⟨3, ![768, 12, 1]⟩
abbrev S768x1x768 : Shape := ⟨3, ![768, 1, 768]⟩
abbrev S768x12x768 : Shape := ⟨3, ![768, 12, 768]⟩
abbrev S768x9216 : Shape := ⟨2, ![768, 9216]⟩
abbrev S1x768 : Shape := ⟨2, ![1, 768]⟩
abbrev S8192x9216 : Shape := ⟨2, ![8192, 9216]⟩
abbrev S256x768 : Shape := ⟨2, ![256, 768]⟩
abbrev S256x9216 : Shape := ⟨2, ![256, 9216]⟩
abbrev S4x2048x12x768 : Shape := ⟨4, ![4, 2048, 12, 768]⟩

abbrev nBuf : Space → Nat
  | .hbm => 16
  | .vmem => 6
  | .smem => 0
  | _ => 0

abbrev bufTy : (tb : Table) → Fin (tcTables nBuf tb) → BufTy
  | .hbm, ⟨0, _⟩ => ⟨S4x2048x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S8192x768, .f32⟩
  | .hbm, ⟨5, _⟩ => ⟨S768x12x1, .f32⟩
  | .hbm, ⟨6, _⟩ => ⟨S768x768, .f32⟩
  | .hbm, ⟨7, _⟩ => ⟨S768x1x768, .f32⟩
  | .hbm, ⟨8, _⟩ => ⟨S768x12x768, .f32⟩
  | .hbm, ⟨9, _⟩ => ⟨S768x12x768, .f32⟩
  | .hbm, ⟨10, _⟩ => ⟨S768x12x768, .f32⟩
  | .hbm, ⟨11, _⟩ => ⟨S768x9216, .f32⟩
  | .hbm, ⟨12, _⟩ => ⟨S768x9216, .bf16⟩
  | .hbm, ⟨13, _⟩ => ⟨S1x768, .f32⟩
  | .hbm, ⟨14, _⟩ => ⟨S8192x9216, .f32⟩
  | .hbm, ⟨15, _⟩ => ⟨S4x2048x12x768, .f32⟩
  | .local _ .vmem, ⟨0, _⟩ => ⟨S256x768, .f32⟩
  | .local _ .vmem, ⟨1, _⟩ => ⟨S256x768, .f32⟩
  | .local _ .vmem, ⟨2, _⟩ => ⟨S768x9216, .bf16⟩
  | .local _ .vmem, ⟨3, _⟩ => ⟨S1x768, .f32⟩
  | .local _ .vmem, ⟨4, _⟩ => ⟨S256x9216, .f32⟩
  | .local _ .vmem, ⟨5, _⟩ => ⟨S256x9216, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x9216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x9216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x2048x768_S8192x768 : S4x2048x768.ShapeCasts S8192x768
  bcast_S768x12_S768x12x1_0_1 : S768x12.BroadcastsInDim S768x12x1 (![0, 1] : Fin 2 → Fin S768x12x1.rank)
  transposes_S768x768_S768x768_1_0 : S768x768.Transposes [1, 0] S768x768
  bcast_S768x768_S768x1x768_0_2 : S768x768.BroadcastsInDim S768x1x768 (![0, 2] : Fin 2 → Fin S768x1x768.rank)
  bcast_S768x12x1_S768x12x768_0_1_2 : S768x12x1.BroadcastsInDim S768x12x768 (![0, 1, 2] : Fin 3 → Fin S768x12x768.rank)
  bcast_S768x1x768_S768x12x768_0_1_2 : S768x1x768.BroadcastsInDim S768x12x768 (![0, 1, 2] : Fin 3 → Fin S768x12x768.rank)
  shapeCasts_S768x12x768_S768x9216 : S768x12x768.ShapeCasts S768x9216
  bitsLt_bf16_f32 : FTy.bits .bf16 < FTy.bits .f32
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x9216_S768x768_0_0 : ∀ a, (![0, 0] : Fin 2 → Nat) a + S768x768.size a ≤ S768x9216.size a
  h_S768x768 : 0 < S768x768.numel
  shapeCasts_S768x768_S768x768 : S768x768.ShapeCasts S768x768
  broadcasts_S1x768_S256x768 : S1x768.Broadcasts S256x768
  inb_S256x9216_S256x768_0_0 : ∀ a, (![0, 0] : Fin 2 → Nat) a + S256x768.size a ≤ S256x9216.size a
  inb_S768x9216_S768x768_0_768 : ∀ a, (![0, 768] : Fin 2 → Nat) a + S768x768.size a ≤ S768x9216.size a
  inb_S256x9216_S256x768_0_768 : ∀ a, (![0, 768] : Fin 2 → Nat) a + S256x768.size a ≤ S256x9216.size a
  inb_S768x9216_S768x768_0_1536 : ∀ a, (![0, 1536] : Fin 2 → Nat) a + S768x768.size a ≤ S768x9216.size a
  inb_S256x9216_S256x768_0_1536 : ∀ a, (![0, 1536] : Fin 2 → Nat) a + S256x768.size a ≤ S256x9216.size a
  inb_S768x9216_S768x768_0_2304 : ∀ a, (![0, 2304] : Fin 2 → Nat) a + S768x768.size a ≤ S768x9216.size a
  inb_S256x9216_S256x768_0_2304 : ∀ a, (![0, 2304] : Fin 2 → Nat) a + S256x768.size a ≤ S256x9216.size a
  inb_S768x9216_S768x768_0_3072 : ∀ a, (![0, 3072] : Fin 2 → Nat) a + S768x768.size a ≤ S768x9216.size a
  inb_S256x9216_S256x768_0_3072 : ∀ a, (![0, 3072] : Fin 2 → Nat) a + S256x768.size a ≤ S256x9216.size a
  inb_S768x9216_S768x768_0_3840 : ∀ a, (![0, 3840] : Fin 2 → Nat) a + S768x768.size a ≤ S768x9216.size a
  inb_S256x9216_S256x768_0_3840 : ∀ a, (![0, 3840] : Fin 2 → Nat) a + S256x768.size a ≤ S256x9216.size a
  inb_S768x9216_S768x768_0_4608 : ∀ a, (![0, 4608] : Fin 2 → Nat) a + S768x768.size a ≤ S768x9216.size a
  inb_S256x9216_S256x768_0_4608 : ∀ a, (![0, 4608] : Fin 2 → Nat) a + S256x768.size a ≤ S256x9216.size a
  inb_S768x9216_S768x768_0_5376 : ∀ a, (![0, 5376] : Fin 2 → Nat) a + S768x768.size a ≤ S768x9216.size a
  inb_S256x9216_S256x768_0_5376 : ∀ a, (![0, 5376] : Fin 2 → Nat) a + S256x768.size a ≤ S256x9216.size a
  inb_S768x9216_S768x768_0_6144 : ∀ a, (![0, 6144] : Fin 2 → Nat) a + S768x768.size a ≤ S768x9216.size a
  inb_S256x9216_S256x768_0_6144 : ∀ a, (![0, 6144] : Fin 2 → Nat) a + S256x768.size a ≤ S256x9216.size a
  inb_S768x9216_S768x768_0_6912 : ∀ a, (![0, 6912] : Fin 2 → Nat) a + S768x768.size a ≤ S768x9216.size a
  inb_S256x9216_S256x768_0_6912 : ∀ a, (![0, 6912] : Fin 2 → Nat) a + S256x768.size a ≤ S256x9216.size a
  inb_S768x9216_S768x768_0_7680 : ∀ a, (![0, 7680] : Fin 2 → Nat) a + S768x768.size a ≤ S768x9216.size a
  inb_S256x9216_S256x768_0_7680 : ∀ a, (![0, 7680] : Fin 2 → Nat) a + S256x768.size a ≤ S256x9216.size a
  inb_S768x9216_S768x768_0_8448 : ∀ a, (![0, 8448] : Fin 2 → Nat) a + S768x768.size a ≤ S768x9216.size a
  inb_S256x9216_S256x768_0_8448 : ∀ a, (![0, 8448] : Fin 2 → Nat) a + S256x768.size a ≤ S256x9216.size a
  shapeCasts_S8192x9216_S4x2048x12x768 : S8192x9216.ShapeCasts S4x2048x12x768
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x768.size a ≤ S8192x768.size a
  hwx0_0 : ∀ i : grid0.Coords, EltTy.bits .f32 = 32 ∨ (Rect.block (s := S8192x768) S256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x9216.size a ≤ S768x9216.size a
  hwx0_1 : ∀ i : grid0.Coords, EltTy.bits .bf16 = 32 ∨ (Rect.block (s := S768x9216) S768x9216.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x9216.size a ≤ S8192x9216.size a
  hwx0_3 : ∀ i : grid0.Coords, EltTy.bits .f32 = 32 ∨ (Rect.block (s := S8192x9216) S256x9216.size (cc0_transform_3 i) (hinb0_3 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v0) S256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S768x9216.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x9216.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S768x12 : Shape := ⟨2, ![768, 12]⟩
abbrev S768x768 : Shape := ⟨2, ![768, 768]⟩
abbrev S768 : Shape := ⟨1, ![768]⟩
abbrev S4x2048x1x768 : Shape := ⟨4, ![4, 2048, 1, 768]⟩
abbrev S12x768 : Shape := ⟨2, ![12, 768]⟩
abbrev S1x1x12x768 : Shape := ⟨4, ![1, 1, 12, 768]⟩
abbrev S4x2048x12x768 : Shape := ⟨4, ![4, 2048, 12, 768]⟩
abbrev S1x1x1x768 : Shape := ⟨4, ![1, 1, 1, 768]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768x12, .f32⟩
  | .hbm, ⟨2, _⟩ => ⟨S768x768, .f32⟩
  | .hbm, ⟨3, _⟩ => ⟨S768, .f32⟩
  | .hbm, ⟨4, _⟩ => ⟨S4x2048x1x768, .f32⟩
  | .hbm, ⟨5, _⟩ => ⟨S12x768, .f32⟩
  | .hbm, ⟨6, _⟩ => ⟨S1x1x12x768, .f32⟩
  | .hbm, ⟨7, _⟩ => ⟨S4x2048x12x768, .f32⟩
  | .hbm, ⟨8, _⟩ => ⟨S4x2048x12x768, .f32⟩
  | .hbm, ⟨9, _⟩ => ⟨S4x2048x12x768, .f32⟩
  | .hbm, ⟨10, _⟩ => ⟨S4x2048x12x768, .f32⟩
  | .hbm, ⟨11, _⟩ => ⟨S1x1x1x768, .f32⟩
  | .hbm, ⟨12, _⟩ => ⟨S4x2048x12x768, .f32⟩
  | .hbm, ⟨13, _⟩ => ⟨S4x2048x12x768, .f32⟩
  | .hbm, ⟨14, _⟩ => ⟨S_, .f32⟩
  | .hbm, ⟨15, _⟩ => ⟨S4x2048x12x768, .f32⟩
  | .hbm, ⟨16, _⟩ => ⟨S4x2048x12x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S4x2048x768_S4x2048x1x768_0_1_3 : S4x2048x768.BroadcastsInDim S4x2048x1x768 (![0, 1, 3] : Fin 3 → Fin S4x2048x1x768.rank)
  transposes_S768x12_S12x768_1_0 : S768x12.Transposes [1, 0] S12x768
  bcast_S12x768_S1x1x12x768_2_3 : S12x768.BroadcastsInDim S1x1x12x768 (![2, 3] : Fin 2 → Fin S1x1x12x768.rank)
  bcast_S4x2048x1x768_S4x2048x12x768_0_1_2_3 : S4x2048x1x768.BroadcastsInDim S4x2048x12x768 (![0, 1, 2, 3] : Fin 4 → Fin S4x2048x12x768.rank)
  bcast_S1x1x12x768_S4x2048x12x768_0_1_2_3 : S1x1x12x768.BroadcastsInDim S4x2048x12x768 (![0, 1, 2, 3] : Fin 4 → Fin S4x2048x12x768.rank)
  bcast_S768_S1x1x1x768_3 : S768.BroadcastsInDim S1x1x1x768 (![3] : Fin 1 → Fin S1x1x1x768.rank)
  bcast_S1x1x1x768_S4x2048x12x768_0_1_2_3 : S1x1x1x768.BroadcastsInDim S4x2048x12x768 (![0, 1, 2, 3] : Fin 4 → Fin S4x2048x12x768.rank)
  bcast_S_S4x2048x12x768 : S_.BroadcastsInDim S4x2048x12x768 (![] : Fin 0 → Fin S4x2048x12x768.rank)
  dot_S4x2048x12x768_S768x768_S4x2048x12x768_3_1_012_0_n_n_wf : DotDims.WF S4x2048x12x768 S768x768 S4x2048x12x768 [3] [1] [0, 1, 2] [0] [] []

variable [Facts₀]

def dot_S4x2048x12x768_S768x768_S4x2048x12x768_3_1_012_0_n_n : DotDims S4x2048x12x768 S768x768 S4x2048x12x768 where
  lhsContracting := [3]
  rhsContracting := [1]
  lhsNonContracting := [0, 1, 2]
  rhsNonContracting := [0]
  lhsBatch := []
  rhsBatch := []
  wf := dot_S4x2048x12x768_S768x768_S4x2048x12x768_3_1_012_0_n_n_wf

class Facts : Prop extends Facts₀ where

variable [Facts]
-- ==== Proof.SlotEntry.lean ====
/-
  One width slot of the kernel's body, at one entry. For a 256-row block hb of tokens, a 768 × 768 block bm of
  folded weights and the bias row, the body computes max (hb · bm + bias, 0): a matrix product into a zero
  accumulator, the bias row added to every row, the maximum with zero. On the extended reals entry (r, e) of it
  is max (Σ_d hb[r,d] · bm[d,e] + bias[0,e]) 0: the product is the plain sum over the one contracted axis (the
  zero accumulator adds nothing), and the row broadcast reads the bias at column e.
-/
import proofs.«115176_j39599598469525_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx

/-- The body's product: rows of the token block against columns of the weight block. -/
abbrev rowsByCols : DotDims S256x768 S768x768 S256x768 := dot_S256x768_S768x768_S256x768_1_0_0_1_n_n

/-- One slot's arithmetic, as the body spells it. -/
def slot (hb : FVec Ideal S256x768 .bf16) (bias : FVec Ideal S1x768 .f32) (bm : FVec Ideal S768x768 .bf16) :
    FVec Ideal S256x768 .f32 :=
  maximumf (addf (matmul rowsByCols none hb bm (constant (F := Ideal) S256x768 .f32 0x00000000#32))
      (broadcastTo S256x768 bias broadcasts_S1x768_S256x768)) (broadcast S256x768 (Scalar.ofBits (F := Ideal) .f32 0x00000000#32))

/-- The left operand is read at the result's row … -/
theorem lhs_row (i : S256x768.Idx) (q : rowsByCols.contr.Idx) : (rowsByCols.lhsIdx i q 0).val = (i 0).val := by
  unfold DotDims.lhsIdx
  rw [dif_neg (show ¬(0 : Fin S256x768.rank) ∈ rowsByCols.lhsBatch by decide),
    dif_pos (show (0 : Fin S256x768.rank) ∈ rowsByCols.lhsNonContracting by decide)]
  rfl
/-- … and the contraction position; -/
theorem lhs_contr (i : S256x768.Idx) (q : rowsByCols.contr.Idx) : (rowsByCols.lhsIdx i q 1).val = (q ⟨0, by decide⟩).val :=
  rowsByCols.lhsIdx_val_of_single rfl i q
/-- the right operand at the contraction position … -/
theorem rhs_contr (i : S256x768.Idx) (q : rowsByCols.contr.Idx) : (rowsByCols.rhsIdx i q 0).val = (q ⟨0, by decide⟩).val :=
  rowsByCols.rhsIdx_val_of_single rfl i q
/-- … and the result's column. -/
theorem rhs_col (i : S256x768.Idx) (q : rowsByCols.contr.Idx) : (rowsByCols.rhsIdx i q 1).val = (i 1).val := by
  unfold DotDims.rhsIdx
  rw [dif_neg (show ¬(1 : Fin S768x768.rank) ∈ rowsByCols.rhsBatch by decide),
    dif_pos (show (1 : Fin S768x768.rank) ∈ rowsByCols.rhsNonContracting by decide)]
  rfl

/-- Entry (r, e) of one slot: the sum over the contracted axis plus the bias at column e, clipped at zero. -/
theorem slot_apply (hb : FVec Ideal S256x768 .bf16) (bias : FVec Ideal S1x768 .f32) (bm : FVec Ideal S768x768 .bf16)
    (r : Fin 256) (e : Fin 768) :
    slot hb bias bm (ix2 r e) = max ((∑ d : Fin 768, hb (ix2 r d) * bm (ix2 d e)) + bias (ix2 (0 : Fin 1) e)) 0 := by
  unfold slot
  rw [maximumf_apply, addf_apply, broadcast_apply]
  rw [show (Scalar.ofBits (F := Ideal) .f32 0x00000000#32 : Ideal .f32) = 0 from Ideal.ofBits_zero_f32]
  rw [broadcastTo_apply bias broadcasts_S1x768_S256x768 (ix2 r e) (ix2 (0 : Fin 1) e) (fun a => match a with
    | ⟨0, _⟩ => by show (0 : Nat) = if (1 : Nat) = 1 then 0 else r.val; rw [if_pos rfl]
    | ⟨1, _⟩ => by show e.val = if (768 : Nat) = 1 then 0 else e.val; rw [if_neg (by decide)])]
  refine congrArg (fun z => max (z + bias (ix2 (0 : Fin 1) e)) 0) ?_
  simp only [matmul]
  rw [Ideal.matmul_constant_zero_apply, ← Equiv.sum_comp (contrEquiv1 rowsByCols 768 rfl rfl).symm]
  refine Finset.sum_congr rfl fun k _ => ?_
  have hk := contrEquiv1_symm_val rowsByCols 768 rfl rfl k
  have el : rowsByCols.lhsIdx (ix2 r e) ((contrEquiv1 rowsByCols 768 rfl rfl).symm k) = ix2 r k :=
    funext fun a => Fin.ext (by
      match a with
      | ⟨0, _⟩ => exact lhs_row _ _
      | ⟨1, _⟩ => exact (lhs_contr _ _).trans hk)
  have er : rowsByCols.rhsIdx (ix2 r e) ((contrEquiv1 rowsByCols 768 rfl rfl).symm k) = ix2 k e :=
    funext fun a => Fin.ext (by
      match a with
      | ⟨0, _⟩ => exact (rhs_contr _ _).trans hk
      | ⟨1, _⟩ => exact rhs_col _ _)
  rw [el, er]

end Cert.KernelIdeal.Body

end
-- ==== Proof.BodyBlock.lean ====
/-
  What the body leaves in the output block, as one function of the block index. The body writes the 256 × 9216
  output block as twelve 256 × 768 column panels; panel s is one slot's arithmetic on the token block (rounded
  to the matrix unit's input format, which changes nothing on the extended reals), the bias row, and columns
  768·s … 768·s + 767 of the folded weights. So entry (r, C) of the block is
      max (Σ_d x0[r,d] · x1[d,C] + x2[0, C mod 768]) 0
  whatever panel C falls in: each panel's payload is this one function read through the panel's rectangle, and
  the panels tile the block, so the stores leave exactly this function.
-/
import proofs.«115176_j39599598469525_2_alg».proof.Proof.Gen.KernelIdeal.Frame
import proofs.«115176_j39599598469525_2_alg».proof.Proof.SlotEntry

noncomputable section

namespace Cert.KernelIdeal.Body

open Cert.KernelIdeal Cert.KernelIdeal.Gen
open Idealize.ShloMosaic Idealize.ShloMosaic.TcCoe Idealize.ShloMosaic.ValueIdx

/-- The output block, index by index, from the three input blocks. -/
def blockFn (x0 : Vec Ideal S256x768 .f32) (x1 : Vec Ideal S768x9216 .bf16) (x2 : Vec Ideal S1x768 .f32) :
    Vec Ideal S256x9216 .f32 :=
  fun y => max ((∑ d : Fin 768, x0 (ix2 (y 0) d) * x1 (ix2 d (y 1)))
    + x2 (ix2 (0 : Fin 1) (⟨(y 1).val % 768, Nat.mod_lt _ (by decide)⟩ : Fin 768))) 0

theorem zeroOffsets : (![0, 0] : Fin 2 → Nat) = fun _ => 0 := funext fun a => by fin_cases a <;> rfl

/-! ## The payloads are one slot's arithmetic -/

theorem roundTokens (v0 : Vec Ideal S256x768 .f32) : k0_pay2 v0 = truncf .bf16 v0 bitsLt_bf16_f32 := by
  unfold k0_pay2; rw [shapeCast_self]
theorem biasRow (v3 : Vec Ideal S1x768 .f32) : k0_pay3 v3 = v3 := by
  unfold k0_pay3; rw [shapeCast_self]
theorem panel7 (v : Vec Ideal S768x768 .bf16) : k0_pay7 v = v := by unfold k0_pay7; rw [shapeCast_self]
theorem panel12 (v : Vec Ideal S768x768 .bf16) : k0_pay12 v = v := by unfold k0_pay12; rw [shapeCast_self]
theorem panel17 (v : Vec Ideal S768x768 .bf16) : k0_pay17 v = v := by unfold k0_pay17; rw [shapeCast_self]

theorem pay1_slot (v2 : FVec Ideal S256x768 .bf16) (v4 : FVec Ideal S1x768 .f32) (w : FVec Ideal S768x768 .bf16) :
    k0_pay1 v2 v4 w (constant (F := Ideal) S256x768 .f32 0x00000000#32) = slot v2 v4 w := rfl
theorem pay8_slot (v2 : FVec Ideal S256x768 .bf16) (v4 : FVec Ideal S1x768 .f32) (w : FVec Ideal S768x768 .bf16) :
    k0_pay8 v2 v4 w (constant (F := Ideal) S256x768 .f32 0x00000000#32) = slot v2 v4 w := rfl
theorem pay13_slot (v2 : FVec Ideal S256x768 .bf16) (v4 : FVec Ideal S1x768 .f32) (w : FVec Ideal S768x768 .bf16) :
    k0_pay13 v2 v4 w (constant (F := Ideal) S256x768 .f32 0x00000000#32) = slot v2 v4 w := rfl

theorem pay4_slot (v0 : Vec Ideal S256x768 .f32) (v3 : Vec Ideal S1x768 .f32) (w : Vec Ideal S768x768 .bf16) :
    k0_pay4 v0 v3 w = slot (truncf .bf16 v0 bitsLt_bf16_f32) v3 w := by
  unfold k0_pay4; rw [roundTokens, biasRow, shapeCast_self]; rfl
theorem pay5_slot (v0 : Vec Ideal S256x768 .f32) (v3 : Vec Ideal S1x768 .f32) (w : Vec Ideal S768x768 .bf16) :
    k0_pay5 v0 v3 w = slot (truncf .bf16 v0 bitsLt_bf16_f32) v3 w := by
  unfold k0_pay5; rw [roundTokens, biasRow, shapeCast_self]; rfl
theorem pay6_slot (v0 : Vec Ideal S256x768 .f32) (v3 : Vec Ideal S1x768 .f32) (w : Vec Ideal S768x768 .bf16) :
    k0_pay6 v0 v3 w = slot (truncf .bf16 v0 bitsLt_bf16_f32) v3 w := by
  unfold k0_pay6; rw [roundTokens, biasRow, shapeCast_self]; rfl

theorem pay9_slot (v2 : FVec Ideal S256x768 .bf16) (v4 : FVec Ideal S1x768 .f32) (w : Vec Ideal S768x768 .bf16) :
    k0_pay9 v2 v4 w = slot v2 v4 w := by unfold k0_pay9; rw [shapeCast_self]; rfl
theorem pay10_slot (v2 : FVec Ideal S256x768 .bf16) (v4 : FVec Ideal S1x768 .f32) (w : Vec Ideal S768x768 .bf16) :
    k0_pay10 v2 v4 w = slot v2 v4 w := by unfold k0_pay10; rw [shapeCast_self]; rfl
theorem pay11_slot (v2 : FVec Ideal S256x768 .bf16) (v4 : FVec Ideal S1x768 .f32) (w : Vec Ideal S768x768 .bf16) :
    k0_pay11 v2 v4 w = slot v2 v4 w := by unfold k0_pay11; rw [shapeCast_self]; rfl
theorem pay14_slot (v2 : FVec Ideal S256x768 .bf16) (v4 : FVec Ideal S1x768 .f32) (w : Vec Ideal S768x768 .bf16) :
    k0_pay14 v2 v4 w = slot v2 v4 w := by unfold k0_pay14; rw [shapeCast_self]; rfl
theorem pay15_slot (v2 : FVec Ideal S256x768 .bf16) (v4 : FVec Ideal S1x768 .f32) (w : Vec Ideal S768x768 .bf16) :
    k0_pay15 v2 v4 w = slot v2 v4 w := by unfold k0_pay15; rw [shapeCast_self]; rfl
theorem pay16_slot (v2 : FVec Ideal S256x768 .bf16) (v4 : FVec Ideal S1x768 .f32) (w : Vec Ideal S768x768 .bf16) :
    k0_pay16 v2 v4 w = slot v2 v4 w := by unfold k0_pay16; rw [shapeCast_self]; rfl

/-! ## One panel is the block function through the panel's rectangle -/

/-- The panel at column offset c (a multiple of 768): one slot's arithmetic on the tokens, the bias row and
    columns c … c + 767 of the weights is the block function at row r, column c + e. -/
theorem panel_entry (c : Nat) (hc : c % 768 = 0)
    (inW : ∀ a, (![0, c] : Fin 2 → Nat) a + S768x768.size a ≤ S768x9216.size a)
    (inO : ∀ a, (![0, c] : Fin 2 → Nat) a + S256x768.size a ≤ S256x9216.size a)
    (x0 : Vec Ideal S256x768 .f32) (x1 : Vec Ideal S768x9216 .bf16) (x2 : Vec Ideal S1x768 .f32) (x : S256x768.Idx) :
    slot (truncf .bf16 x0 bitsLt_bf16_f32) x2 (View.ld x1 (Rect.unit (s := S768x9216) ![0, c] S768x768.size inW)) x
      = blockFn x0 x1 x2 ((Rect.unit (s := S256x9216) ![0, c] S256x768.size inO).emb x) := by
  obtain ⟨r, e, rfl⟩ : ∃ (r : Fin 256) (e : Fin 768), x = ix2 r e := ⟨x 0, x 1, eq_ix2 x⟩
  rw [slot_apply]
  unfold blockFn
  refine congrArg₂ (fun S B => max (S + B) 0) (Finset.sum_congr rfl fun d _ => ?_) ?_
  · refine congrArg₂ (fun a b => a * b) (congrArg x0 ?_) (congrArg x1 ?_)
    · exact funext fun a => Fin.ext (by
        match a with
        | ⟨0, _⟩ => show r.val = 0 + 1 * r.val; omega
        | ⟨1, _⟩ => rfl)
    · exact funext fun a => Fin.ext (by
        match a with
        | ⟨0, _⟩ => show 0 + 1 * d.val = d.val; omega
        | ⟨1, _⟩ => rfl)
  · refine congrArg x2 (funext fun a => Fin.ext ?_)
    match a with
    | ⟨0, _⟩ => rfl
    | ⟨1, _⟩ => show e.val = (c + 1 * e.val) % 768; have := e.isLt; omega

/-! ## The twelve stores leave the block function -/

theorem out_is_blockFn (x0 : Vec Ideal S256x768 .f32) (x1 : Vec Ideal S768x9216 .bf16) (x2 : Vec Ideal S1x768 .f32) :
    out0_3 x0 x1 x2 = blockFn x0 x1 x2 := by
  funext y
  unfold out0_3
  refine View.canon_apply_of_pieces (Val := Elt Ideal) (blockFn x0 x1 x2) _ ?_ y (cover0_3 _ _ _ _ _ _ _ _ _ _ _ _ y)
  intro p hp x
  simp only [List.mem_cons, List.mem_nil_iff, or_false] at hp
  have l0 : View.ld x0 r0_0 = x0 := View.ld_unit_zero zeroOffsets _ x0
  have l2 : View.ld x2 r0_1 = x2 := View.ld_unit_zero zeroOffsets _ x2
  rcases hp with rfl | rfl | rfl | rfl | rfl | rfl | rfl | rfl | rfl | rfl | rfl | rfl
  · dsimp only; rw [pay1_slot, roundTokens, biasRow, panel17, l0, l2]; exact panel_entry 8448 (by decide) _ _ x0 x1 x2 x
  · dsimp only; rw [pay16_slot, roundTokens, biasRow, l0, l2]; exact panel_entry 7680 (by decide) _ _ x0 x1 x2 x
  · dsimp only; rw [pay15_slot, roundTokens, biasRow, l0, l2]; exact panel_entry 6912 (by decide) _ _ x0 x1 x2 x
  · dsimp only; rw [pay14_slot, roundTokens, biasRow, l0, l2]; exact panel_entry 6144 (by decide) _ _ x0 x1 x2 x
  · dsimp only; rw [pay13_slot, roundTokens, biasRow, panel12, l0, l2]; exact panel_entry 5376 (by decide) _ _ x0 x1 x2 x
  · dsimp only; rw [pay11_slot, roundTokens, biasRow, l0, l2]; exact panel_entry 4608 (by decide) _ _ x0 x1 x2 x
  · dsimp only; rw [pay10_slot, roundTokens, biasRow, l0, l2]; exact panel_entry 3840 (by decide) _ _ x0 x1 x2 x
  · dsimp only; rw [pay9_slot, roundTokens, biasRow, l0, l2]; exact panel_entry 3072 (by decide) _ _ x0 x1 x2 x
  · dsimp only; rw [pay8_slot, roundTokens, biasRow, panel7, l0, l2]; exact panel_entry 2304 (by decide) _ _ x0 x1 x2 x
  · dsimp only; rw [pay6_slot, l0, l2]; exact panel_entry 1536 (by decide) _ _ x0 x1 x2 x
  · dsimp only; rw [pay5_slot, l0, l2]; exact panel_entry 768 (by decide) _ _ x0 x1 x2 x
  · dsimp only; rw [pay4_slot, l0, l2]; exact panel_entry 0 (by decide) _ _ x0 x1 x2 x

end Cert.KernelIdeal.Body

end
-- ==== Proof.BlockOfArray.lean ====
/-
  From one block to the whole array. The kernel's output array is [8192, 9216]: row R is a token, column C a
  (slot, feature) pair. As one function of the three arrays the kernel stages — the tokens [8192, 768], the
  folded weights [768, 9216] and the bias row [1, 768] —
      arr[R, C] = max (Σ_d tok[R,d] · fw[d,C] + bias[0, C mod 768]) 0.
  The block of 256 rows starting at row R₀ computed by the body from the 256 token rows starting at R₀, the whole
  weight array and the whole bias row is this function restricted to those rows: the block function reads the
  same entries, shifted by R₀ on the row axis.
-/
import proofs.«115176_j39599598469525_2_alg».proof.Proof.BodyBlock

noncomputable section

namespace Cert.KernelIdeal.Body

open Cert.KernelIdeal Cert.KernelIdeal.Gen
open Idealize.ShloMosaic Idealize.ShloMosaic.TcCoe Idealize.ShloMosaic.ValueIdx

/-- The output array, index by index, from the three staged arrays. -/
def arrayFn (A0 : Vec Ideal S8192x768 .f32) (A1 : Vec Ideal S768x9216 .bf16) (A2 : Vec Ideal S1x768 .f32) :
    Vec Ideal S8192x9216 .f32 :=
  fun i => max ((∑ d : Fin 768, A0 (ix2 (i 0) d) * A1 (ix2 d (i 1)))
    + A2 (ix2 (0 : Fin 1) (⟨(i 1).val % 768, Nat.mod_lt _ (by decide)⟩ : Fin 768))) 0

/-- A block whose token rows are rows R₀ … R₀ + 255 of the token array, and whose weights and bias are the whole
    arrays, holds at (r, C) what the array function holds at (R₀ + r, C). -/
theorem blockFn_of_reads (x0 : Vec Ideal S256x768 .f32) (x1 : Vec Ideal S768x9216 .bf16) (x2 : Vec Ideal S1x768 .f32)
    (A0 : Vec Ideal S8192x768 .f32) (A1 : Vec Ideal S768x9216 .bf16) (A2 : Vec Ideal S1x768 .f32) (R₀ : Nat)
    (h0 : ∀ (r : Fin 256) (d : Fin 768) (i : S8192x768.Idx), (i 0).val = R₀ + r.val → (i 1).val = d.val → x0 (ix2 r d) = A0 i)
    (h1 : ∀ y, x1 y = A1 y) (h2 : ∀ y, x2 y = A2 y)
    (j : S256x9216.Idx) (i : S8192x9216.Idx) (hi0 : (i 0).val = R₀ + (j 0).val) (hi1 : (i 1).val = (j 1).val) :
    blockFn x0 x1 x2 j = arrayFn A0 A1 A2 i := by
  unfold blockFn arrayFn
  refine congrArg₂ (fun S B => max (S + B) 0) (Finset.sum_congr rfl fun d _ => ?_) ?_
  · refine congrArg₂ (fun a b => a * b) (h0 (j 0) d (ix2 (i 0) d) hi0 rfl) ((h1 _).trans (congrArg A1 ?_))
    exact funext fun a => Fin.ext (by
      match a with
      | ⟨0, _⟩ => rfl
      | ⟨1, _⟩ => exact hi1.symm)
  · refine (h2 _).trans (congrArg A2 (funext fun a => Fin.ext ?_))
    match a with
    | ⟨0, _⟩ => rfl
    | ⟨1, _⟩ => show (j 1).val % 768 = (i 1).val % 768; rw [hi1]

end Cert.KernelIdeal.Body

end
-- ==== Proof.OutputArray.lean ====
/-
  The kernel's output array after the run. The grid has 32 points; point t stages token rows 256·t … 256·t + 255,
  the whole folded-weight array and the whole bias row, and writes back output rows 256·t … 256·t + 255 (all 9216
  columns). What it writes back is the array function of the staged arrays restricted to those rows; the 32 row
  bands tile the [8192, 9216] array; so after the run the array is the array function everywhere.
-/
import proofs.«115176_j39599598469525_2_alg».proof.Proof.Gen.KernelIdeal.Frame
import proofs.«115176_j39599598469525_2_alg».proof.Proof.BlockOfArray
import Idealize.ShloMosaic.Lib.Pipeline.Value

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps over the grid: tokens and output move one row band per point, weights and bias stay. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of point t's token block is row 256·t + r of the token matrix. -/
theorem tokens_blk (c : Dev nD) (t : Fin cfg0.N) (r : Fin 256) (d : Fin 768) (i : S8192x768.Idx)
    (h0 : (i 0).val = t.val * 256 + r.val) (h1 : (i 1).val = d.val) :
    iblk m c 0 t (ix2 r d) = V m c main_v0 i := by
  show V m c main_v0 (((cfg0.win 0).blk t).view.emb (ix2 r d)) = V m c main_v0 i
  refine congrArg (V m c main_v0) (funext fun a => Fin.ext ?_)
  obtain ⟨e0, e1, -⟩ := blockIndices t
  match a with
  | ⟨0, _⟩ => show win0_0.index t (0 : Fin 2) * 256 + 1 * r.val = (i 0).val; omega
  | ⟨1, _⟩ => show win0_0.index t (1 : Fin 2) * 768 + 1 * d.val = (i 1).val; omega

/-- The weight block is the whole folded-weight array. -/
theorem weights_blk (c : Dev nD) (t : Fin cfg0.N) (y : S768x9216.Idx) : iblk m c 1 t y = V m c main_v8 y := by
  show V m c main_v8 (((cfg0.win 1).blk t).view.emb y) = V m c main_v8 y
  refine congrArg (V m c main_v8) (funext fun a => Fin.ext ?_)
  obtain ⟨-, -, e2, e3, -⟩ := blockIndices t
  match a with
  | ⟨0, _⟩ => show win0_1.index t (0 : Fin 2) * 768 + 1 * (y 0).val = (y 0).val; omega
  | ⟨1, _⟩ => show win0_1.index t (1 : Fin 2) * 9216 + 1 * (y 1).val = (y 1).val; omega

/-- The bias block is the whole bias row. -/
theorem bias_blk (c : Dev nD) (t : Fin cfg0.N) (y : S1x768.Idx) : iblk m c 2 t y = V m c main_v9 y := by
  show V m c main_v9 (((cfg0.win 2).blk t).view.emb y) = V m c main_v9 y
  refine congrArg (V m c main_v9) (funext fun a => Fin.ext ?_)
  obtain ⟨-, -, -, -, e4, e5, -⟩ := blockIndices t
  match a with
  | ⟨0, _⟩ => show win0_2.index t (0 : Fin 2) * 1 + 1 * (y 0).val = (y 0).val; omega
  | ⟨1, _⟩ => show win0_2.index t (1 : Fin 2) * 768 + 1 * (y 1).val = (y 1).val; omega

/-- What point t writes back is rows 256·t … of the array function of the staged arrays. -/
theorem flushed_eq (c : Dev nD) (t : Fin cfg0.N) :
    (dats m 0 c).flushed 3 t
      = ((cfg0.win 3).blk t).view.read (Elt Ideal) (arrayFn (V m c main_v0) (V m c main_v8) (V m c main_v9)) := by
  show (cfg0.win 3).cut (grid0.coords t) ((dats m 0 c).after 3 t) = _
  rw [after0_3, out_is_blockFn]
  funext j
  show blockFn (iblk m c 0 t) (iblk m c 1 t) (iblk m c 2 t) j
    = arrayFn (V m c main_v0) (V m c main_v8) (V m c main_v9) (((cfg0.win 3).blk t).view.emb j)
  obtain ⟨-, -, -, -, -, -, e6, e7⟩ := blockIndices t
  refine blockFn_of_reads (iblk m c 0 t) (iblk m c 1 t) (iblk m c 2 t) (V m c main_v0) (V m c main_v8) (V m c main_v9)
    (t.val * 256) (fun r d i h0 h1 => tokens_blk m c t r d i h0 h1) (fun y => weights_blk m c t y)
    (fun y => bias_blk m c t y) j (((cfg0.win 3).blk t).view.emb j) ?_ ?_
  · show win0_3.index t (0 : Fin 2) * 256 + 1 * (j 0).val = t.val * 256 + (j 0).val; omega
  · show win0_3.index t (1 : Fin 2) * 9216 + 1 * (j 1).val = (j 1).val; omega

/-- An index of the array is in point t's block iff each coordinate is in the block's range on its axis. -/
theorem mem_blk (t : Fin cfg0.N) (i : S8192x9216.Idx) :
    i ∈ ((cfg0.win 3).blk t).view.set ↔ ∀ a : Fin 2, win0_3.index t a * S256x9216.size a ≤ (i a).val
      ∧ (i a).val < win0_3.index t a * S256x9216.size a + S256x9216.size a := by
  show i ∈ ((View.whole main_v10).slice (win0_3.rect t)).set ↔ _
  rw [View.set_slice_whole, Rect.mem_set_unit]
  exact Iff.rfl

/-- Every index of the array is in the block of the point whose row band holds its row. -/
theorem covered (i : S8192x9216.Idx) :
    ∃ t : Fin cfg0.N, (cfg0.win 3).flush t = true ∧ i ∈ ((cfg0.win 3).blk t).view.set := by
  have hi0 : (i 0).val < 8192 := (i 0).isLt
  have hi1 : (i 1).val < 9216 := (i 1).isLt
  obtain ⟨t, ht⟩ : ∃ t : Fin cfg0.N, t.val = (i 0).val / 256 :=
    ⟨⟨(i 0).val / 256, Nat.lt_of_lt_of_eq (by omega : (i 0).val / 256 < 32) N_0.symm⟩, rfl⟩
  obtain ⟨-, -, -, -, -, -, e6, e7⟩ := blockIndices t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 9216 ≤ (i 1).val ∧ (i 1).val < win0_3.index t (1 : Fin 2) * 9216 + 9216
    omega

/-- The output array after the run is the array function of the staged arrays. -/
theorem final (c : Dev nD) :
    (dats m 0 c).arrAt 3 cfg0.N = arrayFn (V m c main_v0) (V m c main_v8) (V m c main_v9) :=
  (dats m 0 c).arrAt_eq_of_cover 3 (arrayFn (V m c main_v0) (V m c main_v8) (V m c main_v9))
    (fun t _ => flushed_eq m c t) (covered)

end Cert.KernelIdeal.Body

end
-- ==== Proof.StagedArrays.lean ====
/-
  The three arrays the kernel stages, in terms of the program's arguments. Before the kernel is launched the host
  (i) flattens the tokens h[4,2048,768] to a matrix [8192, 768]: row 2048·β + l is token (β, l);
  (ii) folds q into W: fw3[d, s, e] = q[d,s] · Wᵀ[d,e] = q[d,s] · W[e,d], flattened to [768, 9216] so that column
       768·s + e is the pair (s, e), and rounded to the matrix unit's input format (the identity on the extended
       reals);
  (iii) views the bias b[768] as a row [1, 768].
  Each is read here at an index: reshapes keep the row-major position, broadcasts and the transpose only choose
  which entry of the argument is read.
-/
import proofs.«115176_j39599598469525_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Staged

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The four argument arrays on core c, at their literal types: tokens h, column scales q, weights W, bias b. -/
abbrev argH (c : Dev nD) : (⟨S4x2048x768, .f32⟩ : BufTy).Contents (Elt Ideal) := m ((c : Thread nD τ).loc main_arg0)
abbrev argQ (c : Dev nD) : (⟨S768x12, .f32⟩ : BufTy).Contents (Elt Ideal) := m ((c : Thread nD τ).loc main_arg1)
abbrev argW (c : Dev nD) : (⟨S768x768, .f32⟩ : BufTy).Contents (Elt Ideal) := m ((c : Thread nD τ).loc main_arg2)
abbrev argB (c : Dev nD) : (⟨S768, .f32⟩ : BufTy).Contents (Elt Ideal) := m ((c : Thread nD τ).loc main_arg3)

/-- The token matrix is the token array flattened. -/
theorem tokens_eq (c : Dev nD) :
    (V m c main_v0 : S8192x768.Idx → EReal)
      = shapeCast S8192x768 (m ((c : Thread nD τ).loc main_arg0)) shapeCasts_S4x2048x768_S8192x768 := by
  show StableHlo.after hostOps0 (fun b => m (c, b)) (Proc.devRef .tc main_v0) = _
  after_results; rfl

/-- An entry of the token matrix is the entry of the token array at the same row-major position. -/
theorem tokens_apply (c : Dev nD) (i : S8192x768.Idx) (k : S4x2048x768.Idx)
    (hk : ((k 0).val * 2048 + (k 1).val) * 768 + (k 2).val = (i 0).val * 768 + (i 1).val) :
    V m c main_v0 i = m ((c : Thread nD τ).loc main_arg0) k :=
  (congrFun (tokens_eq m c) i).trans
    (shapeCast_apply _ _ i k (by rw [Shape.rowMajor_val_three, Shape.rowMajor_val_two]; exact hk))

/-- The bias row is the bias vector viewed as a row. -/
theorem bias_eq (c : Dev nD) :
    (V m c main_v9 : S1x768.Idx → EReal)
      = shapeCast S1x768 (m ((c : Thread nD τ).loc main_arg3)) shapeCasts_S768_S1x768 := by
  show StableHlo.after hostOps0 (fun b => m (c, b)) (Proc.devRef .tc main_v9) = _
  after_results; rfl

/-- Entry (0, e) of the bias row is b[e]. -/
theorem bias_apply (c : Dev nD) (i : S1x768.Idx) (k : S768.Idx) (hk : (k 0).val = (i 0).val * 768 + (i 1).val) :
    V m c main_v9 i = m ((c : Thread nD τ).loc main_arg3) k :=
  (congrFun (bias_eq m c) i).trans
    (shapeCast_apply _ _ i k (by rw [Shape.rowMajor_val_one, Shape.rowMajor_val_two]; exact hk))

/-- The folded weights: q and Wᵀ broadcast to [768, 12, 768], multiplied, flattened, rounded. -/
theorem weights_eq (c : Dev nD) :
    (V m c main_v8 : S768x9216.Idx → EReal)
      = truncf (F := Ideal) .bf16 (shapeCast S768x9216
          (mulf (F := Ideal) (φ := .f32)
            (broadcastInDim S768x12x768 ![0, 1, 2] bcast_S768x12x1_S768x12x768_0_1_2
              (broadcastInDim S768x12x1 ![0, 1] bcast_S768x12_S768x12x1_0_1 (m ((c : Thread nD τ).loc main_arg1))))
            (broadcastInDim S768x12x768 ![0, 1, 2] bcast_S768x1x768_S768x12x768_0_1_2
              (broadcastInDim S768x1x768 ![0, 2] bcast_S768x768_S768x1x768_0_2
                (transpose S768x768 [1, 0] (m ((c : Thread nD τ).loc main_arg2)) transposes_S768x768_S768x768_1_0))))
          shapeCasts_S768x12x768_S768x9216) bitsLt_bf16_f32 := by
  show StableHlo.after hostOps0 (fun b => m (c, b)) (Proc.devRef .tc main_v8) = _
  after_results; rfl

/-- Entry (d, 768·s + e) of the folded weights is q[d,s] · W[e,d]. -/
theorem weights_apply (c : Dev nD) (d : Fin 768) (s : Fin 12) (e : Fin 768) (i : S768x9216.Idx)
    (hi0 : (i 0).val = d.val) (hi1 : (i 1).val = s.val * 768 + e.val) :
    V m c main_v8 i
      = argQ m c (ix2 d s) * argW m c (ix2 e d) := by
  refine (congrFun (weights_eq m c) i).trans ?_
  refine (truncf_apply (φ := .f32) (ψ := .bf16) _ bitsLt_bf16_f32 i).trans ?_
  refine (shapeCast_apply _ _ i (ix3 d s e) (by
    rw [Shape.rowMajor_val_three, Shape.rowMajor_val_two]
    show (d.val * 12 + s.val) * 768 + e.val = (i 0).val * 9216 + (i 1).val
    omega)).trans ?_
  refine (mulf_apply (φ := .f32) _ _ _).trans ?_
  refine congrArg₂ (fun a b => a * b) ?_ ?_
  · refine (broadcastInDim_apply _ bcast_S768x12x1_S768x12x768_0_1_2 _ (ix3 d s e) (ix3 d s (0 : Fin 1)) (fun a => match a with
      | ⟨0, _⟩ => by show d.val = if (768 : Nat) = 1 then 0 else d.val; rw [if_neg (by decide)]
      | ⟨1, _⟩ => by show s.val = if (12 : Nat) = 1 then 0 else s.val; rw [if_neg (by decide)]
      | ⟨2, _⟩ => by show (0 : Nat) = if (1 : Nat) = 1 then 0 else e.val; rw [if_pos rfl])).trans ?_
    exact broadcastInDim_apply _ bcast_S768x12_S768x12x1_0_1 _ (ix3 d s (0 : Fin 1)) (ix2 d s) (fun a => match a with
      | ⟨0, _⟩ => by show d.val = if (768 : Nat) = 1 then 0 else d.val; rw [if_neg (by decide)]
      | ⟨1, _⟩ => by show s.val = if (12 : Nat) = 1 then 0 else s.val; rw [if_neg (by decide)])
  · refine (broadcastInDim_apply _ bcast_S768x1x768_S768x12x768_0_1_2 _ (ix3 d s e) (ix3 d (0 : Fin 1) e) (fun a => match a with
      | ⟨0, _⟩ => by show d.val = if (768 : Nat) = 1 then 0 else d.val; rw [if_neg (by decide)]
      | ⟨1, _⟩ => by show (0 : Nat) = if (1 : Nat) = 1 then 0 else s.val; rw [if_pos rfl]
      | ⟨2, _⟩ => by show e.val = if (768 : Nat) = 1 then 0 else e.val; rw [if_neg (by decide)])).trans ?_
    refine (broadcastInDim_apply _ bcast_S768x768_S768x1x768_0_2 _ (ix3 d (0 : Fin 1) e) (ix2 d e) (fun a => match a with
      | ⟨0, _⟩ => by show d.val = if (768 : Nat) = 1 then 0 else d.val; rw [if_neg (by decide)]
      | ⟨1, _⟩ => by show e.val = if (768 : Nat) = 1 then 0 else e.val; rw [if_neg (by decide)])).trans ?_
    exact transpose_apply [1, 0] _ transposes_S768x768_S768x768_1_0 (ix2 d e) (ix2 e d) (fun b => match b with
      | ⟨0, _⟩ => rfl
      | ⟨1, _⟩ => rfl)

end Cert.KernelIdeal.Staged

end
-- ==== Proof.SpanSpec.lean ====
/-
  The function both programs compute, on the extended reals. For arrays h[4,2048,768], q[768,12], W[768,768]
  and b[768],
      out[β, l, s, e] = max (Σ_d (h[β,l,d] · q[d,s]) · W[e,d] + b[e]) 0 :
  every token's hidden vector is scaled coordinate-wise by the s-th column of q, sent through the linear map W
  with bias b, and clipped below at zero. One side multiplies the token by q first and contracts with W; the
  other folds q into W first, (q[d,s] · W[e,d]), and contracts the token with that. Multiplication on the
  extended reals is associative (it is a commutative monoid with zero, the conventions at 0 · ±∞ included), so
  the two sums agree term by term: no finiteness of the entries is used.
-/
import Idealize.ShloMosaic.PureOps.Ideal
import Idealize.ShloMosaic.Lib.ValueIdx

noncomputable section

namespace Cert.SpanQuery

open Idealize.ShloMosaic Idealize.ShloMosaic.ValueIdx

/-- One entry of the result: token (β, l), width slot s, output feature e. -/
def spanAt (h : (⟨3, ![4, 2048, 768]⟩ : Shape).Idx → EReal) (q : (⟨2, ![768, 12]⟩ : Shape).Idx → EReal)
    (W : (⟨2, ![768, 768]⟩ : Shape).Idx → EReal) (b : (⟨1, ![768]⟩ : Shape).Idx → EReal)
    (β : Fin 4) (l : Fin 2048) (s : Fin 12) (e : Fin 768) : EReal :=
  max ((∑ d : Fin 768, h (ix3 β l d) * q (ix2 d s) * W (ix2 e d)) + b (ix1 e)) 0

/-- The whole result array, index by index. -/
def spanOut (h : (⟨3, ![4, 2048, 768]⟩ : Shape).Idx → EReal) (q : (⟨2, ![768, 12]⟩ : Shape).Idx → EReal)
    (W : (⟨2, ![768, 768]⟩ : Shape).Idx → EReal) (b : (⟨1, ![768]⟩ : Shape).Idx → EReal) :
    (⟨4, ![4, 2048, 12, 768]⟩ : Shape).Idx → EReal :=
  fun i => spanAt h q W b (i 0) (i 1) (i 2) (i 3)

/-- The same entry with q folded into W before the contraction: h · (q · W) summed over d. Associativity of the
    product, term by term under the sum. -/
theorem spanAt_folded (h : (⟨3, ![4, 2048, 768]⟩ : Shape).Idx → EReal) (q : (⟨2, ![768, 12]⟩ : Shape).Idx → EReal)
    (W : (⟨2, ![768, 768]⟩ : Shape).Idx → EReal) (b : (⟨1, ![768]⟩ : Shape).Idx → EReal)
    (β : Fin 4) (l : Fin 2048) (s : Fin 12) (e : Fin 768) :
    max ((∑ d : Fin 768, h (ix3 β l d) * (q (ix2 d s) * W (ix2 e d))) + b (ix1 e)) 0 = spanAt h q W b β l s e := by
  unfold spanAt
  simp only [mul_assoc]

end Cert.SpanQuery

end
-- ==== Proof.KernelValue.lean ====
/-
  The kernel's result is the specification. After the run the output array [8192, 9216] is the array function of
  the staged arrays; entry (2048·β + l, 768·s + e) of it is
      max (Σ_d h[β,l,d] · (q[d,s] · W[e,d]) + b[e]) 0
  (the token matrix's row 2048·β + l is token (β, l), the folded weights' column 768·s + e is the pair (s, e),
  and (768·s + e) mod 768 = e picks the bias), which is the specification's entry by associativity of the
  product. The host's last line views the array as [4, 2048, 12, 768]: index (β, l, s, e) has the row-major
  position of (2048·β + l, 768·s + e), so the result is the specification, index by index.
-/
import proofs.«115176_j39599598469525_2_alg».proof.Proof.OutputArray
import proofs.«115176_j39599598469525_2_alg».proof.Proof.StagedArrays
import proofs.«115176_j39599598469525_2_alg».proof.Proof.SpanSpec
import Idealize.ShloMosaic.Lib.StableHlo.Run

noncomputable section

namespace Cert.KernelIdeal.Result

open Cert.KernelIdeal Cert.KernelIdeal.Gen Cert.KernelIdeal.Body Cert.KernelIdeal.Staged Cert.SpanQuery
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The output array at row 2048·β + l, column 768·s + e is the specification's entry (β, l, s, e). -/
theorem array_entry (c : Dev nD) (β : Fin 4) (l : Fin 2048) (s : Fin 12) (e : Fin 768) (i : S8192x9216.Idx)
    (h0 : (i 0).val = β.val * 2048 + l.val) (h1 : (i 1).val = s.val * 768 + e.val) :
    arrayFn (V m c main_v0) (V m c main_v8) (V m c main_v9) i
      = spanAt (argH m c) (argQ m c) (argW m c) (argB m c) β l s e := by
  refine Eq.trans ?_ (spanAt_folded (argH m c) (argQ m c) (argW m c) (argB m c) β l s e)
  unfold arrayFn
  refine congrArg₂ (fun S B => max (S + B) 0) (Finset.sum_congr rfl fun d _ => ?_) ?_
  · refine congrArg₂ (fun a b => a * b) ?_ ?_
    · exact tokens_apply m c (ix2 (i 0) d) (ix3 β l d) (by
        show (β.val * 2048 + l.val) * 768 + d.val = (i 0).val * 768 + d.val
        rw [h0])
    · exact weights_apply m c d s e (ix2 d (i 1)) rfl h1
  · exact bias_apply m c _ (ix1 e) (by
      show e.val = 0 * 768 + (i 1).val % 768
      have := e.isLt
      omega)

/-- The host's last line: the result is the output array viewed as [4, 2048, 12, 768]. -/
theorem tail_eq (c : Dev nD) :
    (Pipeline.afterTail₀ cfgs (dats m) 0 (V0 m) [hostOps1] c main_v11 : S4x2048x12x768.Idx → EReal)
      = shapeCast S4x2048x12x768 ((dats m 0 c).arrAt 3 cfg0.N) shapeCasts_S8192x9216_S4x2048x12x768 := by
  unfold Pipeline.afterTail₀
  show StableHlo.after (hostOps1 (F := Ideal)) _ (Proc.devRef .tc main_v11) = _
  after_results
  exact congrArg (fun X : S8192x9216.Idx → EReal => shapeCast S4x2048x12x768 X shapeCasts_S8192x9216_S4x2048x12x768)
    (Pipeline.withArrays_arr spec0 launch0.win.arr_inj c (V0 m c) (fun w => (dats m 0 c).arrAt w cfg0.N) 3)

/-- The kernel's result array is the specification of the four arguments. -/
theorem result_eq (c : Dev nD) :
    (Pipeline.afterTail₀ cfgs (dats m) 0 (V0 m) [hostOps1] c main_v11 : S4x2048x12x768.Idx → EReal)
      = spanOut (argH m c) (argQ m c) (argW m c) (argB m c) := by
  refine (tail_eq m c).trans ?_
  rw [final]
  funext i
  obtain ⟨β, l, s, e, rfl⟩ : ∃ (β : Fin 4) (l : Fin 2048) (s : Fin 12) (e : Fin 768), i = ix4 β l s e :=
    ⟨i 0, i 1, i 2, i 3, eq_ix4 i⟩
  have hR : β.val * 2048 + l.val < 8192 := by have := β.isLt; have := l.isLt; omega
  have hC : s.val * 768 + e.val < 9216 := by have := s.isLt; have := e.isLt; omega
  refine (shapeCast_apply _ _ (ix4 β l s e)
    (ix2 (⟨β.val * 2048 + l.val, hR⟩ : Fin 8192) (⟨s.val * 768 + e.val, hC⟩ : Fin 9216)) (by
      rw [Shape.rowMajor_val_two, Shape.rowMajor_val_four]
      show (β.val * 2048 + l.val) * 9216 + (s.val * 768 + e.val) = ((β.val * 2048 + l.val) * 12 + s.val) * 768 + e.val
      omega)).trans ?_
  exact array_entry m c β l s e _ rfl rfl

/-- Every weakly fair execution of the kernel's program terminates with the result array at the specification of
    the arguments and the arguments unchanged. -/
theorem run : θ_run defs (onTc (τ := τ) (main (F := Ideal))) ⟨m, fun _ => 0, ρ⟩ fun r => ∀ c : Dev nD,
      r.2.mem ((c.tc : Thread nD τ).loc main_v11) = spanOut (argH m c) (argQ m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v11 (Pipeline.mem_restRefs_of main_v11 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Result

end
-- ==== Proof.ReferenceValue.lean ====
/-
  The reference's result is the specification. Read one operation at a time, entry (β, l, s, e) of the
  reference's result is max (Σ_d (h[β,l,d] · qᵀ[s,d]) · W[e,d] + b[e]) 0: the token and the transposed q are
  broadcast to [4,2048,12,768] and multiplied, the product is contracted with W over its last axis against W's
  second, the bias is broadcast along the last axis and added, and the maximum with the zero constant is taken.
  The broadcasts and the transpose only choose which entry of an argument is read, so the composed index
  functions are the coordinate triples and pairs of the specification.
-/
import proofs.«115176_j39599598469525_2_alg».proof.Proof.Gen.ReferenceIdeal.Read
import proofs.«115176_j39599598469525_2_alg».proof.Proof.SpanSpec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.SpanQuery

/-- The reference's last stage, as a function of the four argument arrays, is the specification. -/
theorem result_is_span (x0 : (⟨S4x2048x768, .f32⟩ : BufTy).Contents (Elt Ideal)) (x1 : (⟨S768x12, .f32⟩ : BufTy).Contents (Elt Ideal))
    (x2 : (⟨S768x768, .f32⟩ : BufTy).Contents (Elt Ideal)) (x3 : (⟨S768, .f32⟩ : BufTy).Contents (Elt Ideal)) :
    val_main_v10 (F := Ideal) x0 x1 x2 x3 = spanOut x0 x1 x2 x3 := by
  funext i
  -- the token entry read by the product at contraction position k
  have eh : ∀ k : Fin 768, idx_main_v0 (idx_main_v3 (lidx_main_v6 i k)) = ix3 (i 0) (i 1) k := fun k =>
    funext fun a => Fin.ext (by match a with | ⟨0, _⟩ => rfl | ⟨1, _⟩ => rfl | ⟨2, _⟩ => rfl)
  -- the entry of q (through its transpose) read there
  have eq : ∀ k : Fin 768, idx_main_v1 (idx_main_v2 (idx_main_v4 (lidx_main_v6 i k))) = ix2 k (i 2) := fun k =>
    funext fun a => Fin.ext (by match a with | ⟨0, _⟩ => rfl | ⟨1, _⟩ => rfl)
  -- the entry of W
  have eW : ∀ k : Fin 768, ridx_main_v6 i k = ix2 (i 3) k := fun k =>
    funext fun a => Fin.ext (by match a with | ⟨0, _⟩ => rfl | ⟨1, _⟩ => rfl)
  -- the bias entry
  have eb : idx_main_v7 (idx_main_v8 i) = ix1 (i 3) :=
    funext fun a => Fin.ext (by match a with | ⟨0, _⟩ => rfl)
  rw [val_main_v10_apply, val_main_v9_apply, val_main_v6_apply, val_main_v8_apply, val_main_v7_apply,
    val_main_call0_v0_apply, val_main_call0_cst_apply]
  simp only [val_main_v5_apply, val_main_v3_apply, val_main_v0_apply, val_main_v4_apply, val_main_v2_apply,
    val_main_v1_apply, eh, eq, eW, eb, Ideal.mulf_def, Ideal.addf_def, Ideal.maximumf_def, Ideal.ofBits_def,
    Ideal.ofBits_zero_f32]
  rfl

end Cert.ReferenceIdeal.RefValue

end
-- ==== Proof.lean ====
/-
  The kernel and its reference compute one function on the extended reals. For tokens h[4,2048,768], column
  scales q[768,12], weights W[768,768] and bias b[768],
      out[β, l, s, e] = max (Σ_d (h[β,l,d] · q[d,s]) · W[e,d] + b[e]) 0.
  The reference scales the token by column s of q, contracts with W over d, adds b and clips at zero. The kernel
  folds q into W on the host, fw[d, 768·s + e] = q[d,s] · W[e,d], flattens the tokens to [8192, 768], and for each
  band of 256 tokens and each of the 12 slots multiplies the band with the slot's 768 columns of fw, adds b and
  clips; the [8192, 9216] result is viewed as [4, 2048, 12, 768]. The two agree term by term under the sum because
  the product of extended reals is associative, h · (q · W) = (h · q) · W, at the infinities and at zero too; the
  roundings to the matrix unit's input format are the identity on the extended reals. The finiteness of the
  inputs is not used.
  The kernel's two frames are its frame proofs at the two instances; the reference's is its run with the result
  dropped. The idealization rewrote no operation, so it owes nothing.
-/
import proofs.«115176_j39599598469525_2_alg».proof.Defs
import proofs.«115176_j39599598469525_2_alg».proof.Proof.Gen.Kernel
import proofs.«115176_j39599598469525_2_alg».proof.Proof.Gen.Kernel.Skeleton
import proofs.«115176_j39599598469525_2_alg».proof.Proof.Gen.Kernel.Launch
import proofs.«115176_j39599598469525_2_alg».proof.Proof.Gen.Kernel.Points
import proofs.«115176_j39599598469525_2_alg».proof.Proof.Gen.Kernel.Frame
import proofs.«115176_j39599598469525_2_alg».proof.Proof.Gen.KernelIdeal
import proofs.«115176_j39599598469525_2_alg».proof.Proof.Gen.KernelIdeal.Skeleton
import proofs.«115176_j39599598469525_2_alg».proof.Proof.Gen.KernelIdeal.Launch
import proofs.«115176_j39599598469525_2_alg».proof.Proof.Gen.KernelIdeal.Points
import proofs.«115176_j39599598469525_2_alg».proof.Proof.Gen.KernelIdeal.Frame
import proofs.«115176_j39599598469525_2_alg».proof.Proof.Gen.ReferenceIdeal
import proofs.«115176_j39599598469525_2_alg».proof.Proof.Gen.ReferenceIdeal.Read
import proofs.«115176_j39599598469525_2_alg».proof.Proof.Gen.Pre_finite_inputs
import Idealize.ShloMosaic.Adequacy
import Idealize.ShloMosaic.Init

import proofs.«115176_j39599598469525_2_alg».proof.Proof.KernelValue
import proofs.«115176_j39599598469525_2_alg».proof.Proof.ReferenceValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification of the (agreeing) arguments in their result arrays. -/
theorem algebraic : Cert.algebraic_KernelIdeal_ReferenceIdeal := by
  intro m ρ m' ρ' _ hagree
  refine ⟨fun c => Cert.SpanQuery.spanOut (Cert.KernelIdeal.Staged.argH m c) (Cert.KernelIdeal.Staged.argQ m c)
      (Cert.KernelIdeal.Staged.argW m c) (Cert.KernelIdeal.Staged.argB m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_is_span,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
